-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S65536 : Shape := ⟨1, ![65536]⟩
abbrev S4096 : Shape := ⟨1, ![4096]⟩
abbrev S16777216 : Shape := ⟨1, ![16777216]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S65536 : S_.BroadcastsInDim S65536 (![] : Fin 0 → Fin S65536.rank)
  reducesTo_S65536_S_d0 : S65536.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S65536 .f32) (main_arg2 : FVec F S4096 .f32) (main_arg3 : IVec S16777216 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S65536 .f32 := Host.absf main_arg1
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S65536 : Shape := ⟨1, ![65536]⟩
abbrev S4096 : Shape := ⟨1, ![4096]⟩
abbrev S16777216 : Shape := ⟨1, ![16777216]⟩
abbrev S_ : Shape := ⟨0, ![]⟩
abbrev S16777216x1 : Shape := ⟨2, ![16777216, 1]⟩
abbrev S1 : Shape := ⟨1, ![1]⟩
abbrev S1x1 : Shape := ⟨2, ![1, 1]⟩
abbrev S4096x4096 : Shape := ⟨2, ![4096, 4096]⟩
abbrev S1x4096 : Shape := ⟨2, ![1, 4096]⟩
abbrev S1024x4096 : Shape := ⟨2, ![1024, 4096]⟩
abbrev S1x1024 : Shape := ⟨2, ![1, 1024]⟩
abbrev S1024x1024 : Shape := ⟨2, ![1024, 1024]⟩
abbrev S4096x1024 : Shape := ⟨2, ![4096, 1024]⟩

abbrev nBuf : Space → Nat
  | .hbm => 31
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S65536, .f32⟩
  | .hbm, ⟨2, _⟩ => ⟨S4096, .f32⟩
  | .hbm, ⟨3, _⟩ => ⟨S16777216, .i32⟩
  | .hbm, ⟨4, _⟩ => ⟨S_, .i32⟩
  | .hbm, ⟨5, _⟩ => ⟨S16777216, .i32⟩
  | .hbm, ⟨6, _⟩ => ⟨S16777216, .i1⟩
  | .hbm, ⟨7, _⟩ => ⟨S_, .i32⟩
  | .hbm, ⟨8, _⟩ => ⟨S16777216, .i32⟩
  | .hbm, ⟨9, _⟩ => ⟨S16777216, .i32⟩
  | .hbm, ⟨10, _⟩ => ⟨S16777216, .i32⟩
  | .hbm, ⟨11, _⟩ => ⟨S16777216x1, .i32⟩
  | .hbm, ⟨12, _⟩ => ⟨S1, .i32⟩
  | .hbm, ⟨13, _⟩ => ⟨S_, .i32⟩
  | .hbm, ⟨14, _⟩ => ⟨S16777216x1, .i32⟩
  | .hbm, ⟨15, _⟩ => ⟨S16777216x1, .i1⟩
  | .hbm, ⟨16, _⟩ => ⟨S1x1, .i32⟩
  | .hbm, ⟨17, _⟩ => ⟨S16777216x1, .i32⟩
  | .hbm, ⟨18, _⟩ => ⟨S16777216x1, .i1⟩
  | .hbm, ⟨19, _⟩ => ⟨S16777216x1, .i1⟩
  | .hbm, ⟨20, _⟩ => ⟨S_, .i1⟩
  | .hbm, ⟨21, _⟩ => ⟨S16777216, .i1⟩
  | .hbm, ⟨22, _⟩ => ⟨S16777216, .f32⟩
  | .hbm, ⟨23, _⟩ => ⟨S_, .f32⟩
  | .hbm, ⟨24, _⟩ => ⟨S16777216, .f32⟩
  | .hbm, ⟨25, _⟩ => ⟨S16777216, .f32⟩
  | .hbm, ⟨26, _⟩ => ⟨S4096x4096, .f32⟩
  | .hbm, ⟨27, _⟩ => ⟨S8192x4096, .bf16⟩
  | .hbm, ⟨28, _⟩ => ⟨S4096x4096, .bf16⟩
  | .hbm, ⟨29, _⟩ => ⟨S1x4096, .f32⟩
  | .hbm, ⟨30, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S16777216x1 : S_.BroadcastsInDim S16777216x1 (![] : Fin 0 → Fin S16777216x1.rank)
  bcast_S1_S1x1_1 : S1.BroadcastsInDim S1x1 (![1] : Fin 1 → Fin S1x1.rank)
  bcast_S1x1_S16777216x1_0_1 : S1x1.BroadcastsInDim S16777216x1 (![0, 1] : Fin 2 → Fin S16777216x1.rank)
  reducesTo_S16777216x1_S16777216_d1 : S16777216x1.ReducesTo [1] S16777216
  h_S_ : 0 < S_.numel
  shapeCasts_S16777216_S4096x4096 : S16777216.ShapeCasts S4096x4096
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  transposes_S1024x4096_p1_0_S4096x1024 : S1024x4096.Transposes [1, 0] S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  gather_S65536_S16777216x1_S16777216_n_0_n_n_0_1_1_wf : GatherDims.WF S65536 S16777216x1 S16777216 [] [0] [] [0] [] 1 ![1]
  dot_S1024x4096_S4096x1024_S1024x1024_1_0_0_1_n_n_wf : DotDims.WF S1024x4096 S4096x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S65536_S16777216x1_S16777216_n_0_n_n_0_1_1 : GatherDims S65536 S16777216x1 S16777216 where
  offsetDims := []
  collapsedSliceDims := [0]
  operandBatchingDims := []
  startIndicesBatchingDims := []
  startIndexMap := [0]
  indexVectorDim := 1
  sliceSizes := ![1]
  wf := gather_S65536_S16777216x1_S16777216_n_0_n_n_0_1_1_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf

abbrev win0_0 : Pipeline.Window sig grid0 :=
  Pipeline.Window.ofSpec (Memref.whole main_v2) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S65536 : Shape := ⟨1, ![65536]⟩
abbrev S4096 : Shape := ⟨1, ![4096]⟩
abbrev S16777216 : Shape := ⟨1, ![16777216]⟩
abbrev S_ : Shape := ⟨0, ![]⟩
abbrev S16777216x1 : Shape := ⟨2, ![16777216, 1]⟩
abbrev S1 : Shape := ⟨1, ![1]⟩
abbrev S1x1 : Shape := ⟨2, ![1, 1]⟩
abbrev S4096x4096 : Shape := ⟨2, ![4096, 4096]⟩
abbrev S1x4096 : Shape := ⟨2, ![1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S65536, .f32⟩
  | .hbm, ⟨2, _⟩ => ⟨S4096, .f32⟩
  | .hbm, ⟨3, _⟩ => ⟨S16777216, .i32⟩
  | .hbm, ⟨4, _⟩ => ⟨S_, .i32⟩
  | .hbm, ⟨5, _⟩ => ⟨S16777216, .i32⟩
  | .hbm, ⟨6, _⟩ => ⟨S16777216, .i1⟩
  | .hbm, ⟨7, _⟩ => ⟨S_, .i32⟩
  | .hbm, ⟨8, _⟩ => ⟨S16777216, .i32⟩
  | .hbm, ⟨9, _⟩ => ⟨S16777216, .i32⟩
  | .hbm, ⟨10, _⟩ => ⟨S16777216, .i32⟩
  | .hbm, ⟨11, _⟩ => ⟨S16777216x1, .i32⟩
  | .hbm, ⟨12, _⟩ => ⟨S1, .i32⟩
  | .hbm, ⟨13, _⟩ => ⟨S_, .i32⟩
  | .hbm, ⟨14, _⟩ => ⟨S16777216x1, .i32⟩
  | .hbm, ⟨15, _⟩ => ⟨S16777216x1, .i1⟩
  | .hbm, ⟨16, _⟩ => ⟨S1x1, .i32⟩
  | .hbm, ⟨17, _⟩ => ⟨S16777216x1, .i32⟩
  | .hbm, ⟨18, _⟩ => ⟨S16777216x1, .i1⟩
  | .hbm, ⟨19, _⟩ => ⟨S16777216x1, .i1⟩
  | .hbm, ⟨20, _⟩ => ⟨S_, .i1⟩
  | .hbm, ⟨21, _⟩ => ⟨S16777216, .i1⟩
  | .hbm, ⟨22, _⟩ => ⟨S16777216, .f32⟩
  | .hbm, ⟨23, _⟩ => ⟨S_, .f32⟩
  | .hbm, ⟨24, _⟩ => ⟨S16777216, .f32⟩
  | .hbm, ⟨25, _⟩ => ⟨S16777216, .f32⟩
  | .hbm, ⟨26, _⟩ => ⟨S4096x4096, .f32⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S16777216x1 : S_.BroadcastsInDim S16777216x1 (![] : Fin 0 → Fin S16777216x1.rank)
  bcast_S1_S1x1_1 : S1.BroadcastsInDim S1x1 (![1] : Fin 1 → Fin S1x1.rank)
  bcast_S1x1_S16777216x1_0_1 : S1x1.BroadcastsInDim S16777216x1 (![0, 1] : Fin 2 → Fin S16777216x1.rank)
  reducesTo_S16777216x1_S16777216_d1 : S16777216x1.ReducesTo [1] S16777216
  h_S_ : 0 < S_.numel
  shapeCasts_S16777216_S4096x4096 : S16777216.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S65536_S16777216x1_S16777216_n_0_n_n_0_1_1_wf : GatherDims.WF S65536 S16777216x1 S16777216 [] [0] [] [0] [] 1 ![1]
  dot_S8192x4096_S4096x4096_S8192x4096_1_1_0_0_n_n_wf : DotDims.WF S8192x4096 S4096x4096 S8192x4096 [1] [1] [0] [0] [] []

variable [Facts₀]

def gather_S65536_S16777216x1_S16777216_n_0_n_n_0_1_1 : GatherDims S65536 S16777216x1 S16777216 where
  offsetDims := []
  collapsedSliceDims := [0]
  operandBatchingDims := []
  startIndicesBatchingDims := []
  startIndexMap := [0]
  indexVectorDim := 1
  sliceSizes := ![1]
  wf := gather_S65536_S16777216x1_S16777216_n_0_n_n_0_1_1_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.KernelBody.lean ====
/-
  What one run of the kernel body stores, entry by entry.

  The body loads a 1024 × 4096 block `a` of tokens, a 1024 × 4096 block `w` of weight rows and a 1 × 1024
  block `β` of the bias, transposes `w`, multiplies `a` by it into a zero accumulator and adds `β` to every
  row. Over the extended reals the stored 1024 × 1024 tile therefore holds, at row `p` and column `q`,

      ∑ₖ a (p, k) · w (q, k)  +  β (0, q) :

  the product against the transpose reads row `q` of `w`, a sum into the zero accumulator is the bare sum, and
  the bias row is repeated down the tile.
-/
import proofs.«135311_j28132035789294_1_alg».proof.Proof.Gen.KernelIdeal.Skeleton
import proofs.«135311_j28132035789294_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-- The stored tile at `(p, q)`: row `p` of the token block against row `q` of the weight block, plus the
    bias entry of column `q`. -/
theorem payload_apply (a w : Vec Ideal S1024x4096 .bf16) (β : Vec Ideal S1x1024 .f32) (p q : Fin 1024) :
    k0_pay1 (F := Ideal) a w β (ix2 p q)
      = (∑ k : Fin 4096, a (ix2 p k) * w (ix2 q k)) + β (ix2 (0 : Fin 1) q) := by
  unfold k0_pay1
  rw [addf_apply, broadcastTo_1b_ab_apply]
  simp only [shapeCast_self]
  refine congrArg (· + β (ix2 (0 : Fin 1) q)) ?_
  refine (Cert.LibPlainMatmul.matmul_zero_plain _ _ _ p q).trans ?_
  refine Finset.sum_congr rfl fun k _ => ?_
  rw [transpose_ix2_apply]

end Cert.KernelIdeal.Body

end
-- ==== Proof.Spec.lean ====
/-
  The hashed linear layer, as a function of its four argument arrays over the extended reals.

  A table `w` of 65536 shared weights and a list `idx` of 4096 · 4096 integer positions name a dense
  4096 × 4096 weight matrix: entry number `e` (in row-major order) of the matrix is `w[idx[e]]`, where a
  negative position counts from the end of the table (65536 is added to it) and a position that is still
  outside `0 … 65535` yields the quiet-NaN pattern instead of a table entry. This is `lookup`; `dense`
  re-lays the 16777216 looked-up values as the matrix. The layer itself sends a token matrix `x`
  (8192 × 4096) to `x · Wᵀ + b`: at row `p` and column `q`,

      ∑ₖ x (p, k) · W (q, k)  +  b q .

  Both programs compute the lookup by the same host operations; nothing below ever looks inside it.
-/
import Idealize.ShloMosaic.PureOps
import Idealize.ShloMosaic.PureOps.Ideal
import Idealize.ShloMosaic.Lib.ValueIdx

noncomputable section

namespace Cert.HashedLinear

open Idealize.ShloMosaic Idealize.ShloMosaic.ValueIdx
open scoped BigOperators

/-! ## Shapes -/

abbrev STokens : Shape := ⟨2, ![8192, 4096]⟩
abbrev STable : Shape := ⟨1, ![65536]⟩
abbrev SBias : Shape := ⟨1, ![4096]⟩
abbrev SFlat : Shape := ⟨1, ![16777216]⟩
abbrev SFlatCol : Shape := ⟨2, ![16777216, 1]⟩
abbrev SDense : Shape := ⟨2, ![4096, 4096]⟩
abbrev SScalar : Shape := ⟨0, ![]⟩
abbrev SOne : Shape := ⟨1, ![1]⟩
abbrev SOneOne : Shape := ⟨2, ![1, 1]⟩

theorem scalar_to_flat : SScalar.BroadcastsInDim SFlat (![] : Fin 0 → Fin SFlat.rank) := by decide
theorem flat_to_col : SFlat.BroadcastsInDim SFlatCol (![0] : Fin 1 → Fin SFlatCol.rank) := by decide
theorem scalar_to_col : SScalar.BroadcastsInDim SFlatCol (![] : Fin 0 → Fin SFlatCol.rank) := by decide
theorem one_to_oneone : SOne.BroadcastsInDim SOneOne (![1] : Fin 1 → Fin SOneOne.rank) := by decide
theorem oneone_to_col : SOneOne.BroadcastsInDim SFlatCol (![0, 1] : Fin 2 → Fin SFlatCol.rank) := by decide
theorem col_reduces : SFlatCol.ReducesTo [1] SFlat := by decide
theorem scalar_pos : 0 < SScalar.numel := by decide
theorem flat_casts_dense : SFlat.ShapeCasts SDense := by decide

/-- One table entry per position: the table's only axis is indexed and collapsed. -/
def lookupDims : GatherDims STable SFlatCol SFlat where
  offsetDims := []
  collapsedSliceDims := [0]
  operandBatchingDims := []
  startIndicesBatchingDims := []
  startIndexMap := [0]
  indexVectorDim := 1
  sliceSizes := ![1]
  wf := by decide

variable {F : FTy → Type} [FloatOps F]

/-! ## The lookup -/

/-- A negative position counts from the end of the table. -/
def wrapped (idx : IVec SFlat 32) : IVec SFlat 32 :=
  select (cmpi .slt idx (broadcastInDim SFlat ![] scalar_to_flat (constantI SScalar 32 0#32)))
    (addi idx (broadcastInDim SFlat ![] scalar_to_flat (constantI SScalar 32 65536#32))) idx

/-- The positions as a column of one-entry index vectors. -/
def positions (idx : IVec SFlat 32) : IVec SFlatCol 32 :=
  broadcastInDim SFlatCol ![0] flat_to_col (wrapped idx)

/-- Which positions lie inside the table, `0 ≤ · ≤ 65535`. -/
def inTable (idx : IVec SFlat 32) : IVec SFlat 1 :=
  Host.reduce IntOp.andi
    (andi (cmpi .sge (positions idx) (broadcastInDim SFlatCol ![] scalar_to_col (constantI SScalar 32 0#32)))
      (cmpi .sle (positions idx)
        (broadcastInDim SFlatCol ![0, 1] oneone_to_col
          (broadcastInDim SOneOne ![1] one_to_oneone (constantI SOne 32 65535#32)))))
    (constantI SScalar 1 1#1) col_reduces scalar_pos

/-- The looked-up values, one per position: the table's entry there, or the quiet-NaN pattern where the position
    is outside the table. -/
def lookup (w : FVec F STable .f32) (idx : IVec SFlat 32) : FVec F SFlat .f32 :=
  select (inTable idx) (Host.gather lookupDims w (positions idx))
    (broadcastInDim SFlat ![] scalar_to_flat (constant (F := F) SScalar .f32 0x7FC00000#32))

/-- The looked-up values as the 4096 × 4096 weight matrix, rows first. -/
def dense (w : FVec F STable .f32) (idx : IVec SFlat 32) : FVec F SDense .f32 :=
  shapeCast SDense (lookup w idx) flat_casts_dense

/-! ## The layer -/

/-- `x · Wᵀ + b`, entry by entry. -/
def linear (x : FVec Ideal STokens .f32) (W : FVec Ideal SDense .f32) (b : FVec Ideal SBias .f32) :
    FVec Ideal STokens .f32 :=
  fun i => (∑ k : Fin 4096, x (ix2 (i 0) k) * W (ix2 (i 1) k)) + b (ix1 (i 1))

/-- The layer on the four arguments. -/
def hashedLinear (x : FVec Ideal STokens .f32) (w : FVec Ideal STable .f32) (b : FVec Ideal SBias .f32)
    (idx : IVec SFlat 32) : FVec Ideal STokens .f32 :=
  linear x (dense w idx) b

theorem linear_apply (x : FVec Ideal STokens .f32) (W : FVec Ideal SDense .f32) (b : FVec Ideal SBias .f32)
    (p : Fin 8192) (q : Fin 4096) :
    linear x W b (ix2 p q) = (∑ k : Fin 4096, x (ix2 p k) * W (ix2 q k)) + b (ix1 q) := rfl

end Cert.HashedLinear

end
-- ==== Proof.KernelEntry.lean ====
/-
  The three arrays the kernel's one region reads, as functions of the program's arguments.

  Before the region the host looks the dense weight matrix up from the shared table (the specification's
  `lookup`, re-laid as `dense`), narrows the tokens and the weights to the 16-bit format, and re-lays the
  bias vector as a one-row matrix. So the region finds: the tokens narrowed; the dense weights narrowed;
  the bias as a row. (Over the extended reals narrowing changes nothing; that is used where these arrays
  are read, not here.) The host's line is read in two stretches: the lookup's operations compose to
  `lookup`, and the four operations after them are read over whatever the first stretch left.
-/
import proofs.«135311_j28132035789294_1_alg».proof.Proof.Gen.KernelIdeal.Frame
import proofs.«135311_j28132035789294_1_alg».proof.Proof.Spec
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]

/-- Contents carried to a typed reference's buffer and back are unchanged. -/
theorem ofBuf_toBuf {T : BufTy} (x : TRef sig T) (v : T.Contents (Elt F)) : x.ofBuf (x.toBuf v) = v := by
  obtain ⟨r, rfl, h2, h3⟩ := x
  rfl

attribute [local irreducible] Host.reduce Host.gather in
set_option maxRecDepth 8192 in
set_option maxHeartbeats 400000 in
/-- The first stretch leaves the looked-up values in its result buffer: its operations, composed, are the
    specification's `lookup`, operation for operation (the reduction and the gather are never opened to see it). -/
theorem lookup_after (V₀ : Valuation τ sig (Elt F)) :
    after hostOps0 V₀ (Proc.devRef .tc main_v0)
      = Cert.HashedLinear.lookup (F := F) (V₀ (Proc.devRef .tc main_arg1)) (V₀ (Proc.devRef .tc main_arg3)) := by
  dsimp only [hostOps0]
  after_results
  simp only [ofBuf_toBuf, Cert.HashedLinear.lookup, Cert.HashedLinear.inTable, Cert.HashedLinear.positions,
    Cert.HashedLinear.wrapped]
  rfl

/-- The first stretch writes none of the arguments. -/
theorem arg0_after (V₀ : Valuation τ sig (Elt F)) :
    after hostOps0 V₀ (Proc.devRef .tc main_arg0) = V₀ (Proc.devRef .tc main_arg0) := by
  dsimp only [hostOps0]
  after_results

theorem arg2_after (V₀ : Valuation τ sig (Elt F)) :
    after hostOps0 V₀ (Proc.devRef .tc main_arg2) = V₀ (Proc.devRef .tc main_arg2) := by
  dsimp only [hostOps0]
  after_results

variable (m : (ℓ : Loc nD τ sig) → Buf (Elt F) ℓ)

/-- The region-entry contents, the two stretches apart. -/
theorem V_split (c : Dev nD) (b : Ref sig .tc) :
    V m c b = after hostOps0_1 (after hostOps0 (fun b => m (c, b))) (Proc.devRef .tc b) := by
  dsimp only [V]
  simp only [List.flatten_cons, List.flatten_nil, List.append_nil]
  rw [StableHlo.after_append]

/-- The token array the region stages is the argument narrowed. -/
theorem tokens_entry (c : Dev nD) :
    (V m c main_v2 : S8192x4096.Idx → Elt F .bf16)
      = truncf .bf16 (m ((c : Thread nD τ).loc main_arg0)) bitsLt_bf16_f32 := by
  rw [V_split]
  generalize hW : after hostOps0 (fun b => m (c, b)) = W
  have h0 : W (Proc.devRef .tc main_arg0) = m ((c : Thread nD τ).loc main_arg0) := by
    rw [← hW]; exact arg0_after _
  dsimp only [hostOps0_1]
  after_results
  rw [h0]

/-- The weight array the region stages is the dense matrix looked up from the table, narrowed. -/
theorem weights_entry (c : Dev nD) :
    (V m c main_v3 : S4096x4096.Idx → Elt F .bf16)
      = truncf .bf16 (Cert.HashedLinear.dense (F := F) (m ((c : Thread nD τ).loc main_arg1))
          (m ((c : Thread nD τ).loc main_arg3))) bitsLt_bf16_f32 := by
  rw [V_split]
  generalize hW : after hostOps0 (fun b => m (c, b)) = W
  have h0 : W (Proc.devRef .tc main_v0)
      = Cert.HashedLinear.lookup (F := F) (m ((c : Thread nD τ).loc main_arg1)) (m ((c : Thread nD τ).loc main_arg3)) := by
    rw [← hW]; exact lookup_after _
  dsimp only [hostOps0_1]
  after_results
  rw [h0]
  rfl

/-- The bias array the region stages is the bias vector as one row. -/
theorem bias_entry (c : Dev nD) :
    (V m c main_v4 : S1x4096.Idx → Elt F .f32)
      = shapeCast S1x4096 (m ((c : Thread nD τ).loc main_arg2)) shapeCasts_S4096_S1x4096 := by
  rw [V_split]
  generalize hW : after hostOps0 (fun b => m (c, b)) = W
  have h0 : W (Proc.devRef .tc main_arg2) = m ((c : Thread nD τ).loc main_arg2) := by
    rw [← hW]; exact arg2_after _
  dsimp only [hostOps0_1]
  after_results
  rw [h0]
  try rfl

/-! The same three facts with each array named as the region's window names it. -/

theorem tokens_array (c : Dev nD) :
    (V m c (Pipeline.arrRef spec0 0) : S8192x4096.Idx → Elt F .bf16)
      = truncf .bf16 (m ((c : Thread nD τ).loc main_arg0)) bitsLt_bf16_f32 := tokens_entry m c

theorem weights_array (c : Dev nD) :
    (V m c (Pipeline.arrRef spec0 1) : S4096x4096.Idx → Elt F .bf16)
      = truncf .bf16 (Cert.HashedLinear.dense (F := F) (m ((c : Thread nD τ).loc main_arg1))
          (m ((c : Thread nD τ).loc main_arg3))) bitsLt_bf16_f32 := weights_entry m c

theorem bias_array (c : Dev nD) :
    (V m c (Pipeline.arrRef spec0 2) : S1x4096.Idx → Elt F .f32)
      = shapeCast S1x4096 (m ((c : Thread nD τ).loc main_arg2)) shapeCasts_S4096_S1x4096 := bias_entry m c

end Cert.KernelIdeal.Entry

end
-- ==== Proof.KernelTiles.lean ====
/-
  From tiles to the whole result: after the kernel's run the result array is the hashed linear layer of the
  arguments.

  The grid has 8 × 4 points. Point (i, j) reads rows 1024·i … of the tokens (all 4096 columns), rows
  1024·j … of the dense weights (all columns), columns 1024·j … of the bias row, and writes the
  1024 × 1024 tile of the result at rows 1024·i …, columns 1024·j … . Entry (p, q) of that tile is

      ∑ₖ tokens (1024·i + p, k) · weights (1024·j + q, k)  +  bias (1024·j + q),

  which is entry (1024·i + p, 1024·j + q) of `x · Wᵀ + b`: every tile is the matching block of ONE
  function of the arguments. The 32 tiles cover the 8192 × 4096 result — entry (r, s) lies in the tile of
  point (r / 1024, s / 1024) — so the whole array is that function. Narrowing the tokens and the weights
  to the 16-bit format is the identity over the extended reals.
-/
import proofs.«135311_j28132035789294_1_alg».proof.Proof.Gen.KernelIdeal.Value
import proofs.«135311_j28132035789294_1_alg».proof.Proof.KernelBody
import proofs.«135311_j28132035789294_1_alg».proof.Proof.KernelEntry
import proofs.«135311_j28132035789294_1_alg».proof.Proof.Spec
import Idealize.ShloMosaic.Lib.Pipeline.Value
import Idealize.ShloMosaic.Lib.ValueIdx
import Idealize.ShloMosaic.Lib.ValueLayout

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

-- the dense weights enter only as a named array: nothing here looks inside the lookup
attribute [local irreducible] Cert.HashedLinear.dense Cert.HashedLinear.lookup

variable (m : (ℓ : Loc nD τ sig) → Buf (Elt Ideal) ℓ) (ρ : Dev nD → PrngReg)

theorem origin : (![0, 0] : Fin 2 → Nat) = fun _ => 0 := funext fun a => by fin_cases a <;> rfl

/-! ## Where each window's block sits, relative to the result's tile -/

/-- Decided over the 32 grid points: the token block is in the tile's block row and spans all columns; the
    weight block is in the block row named by the tile's block COLUMN and spans all columns; the bias block
    is in the tile's block column of the one row; and the tile's block indices stay inside 8 × 4. -/
theorem index_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every tile position of the 8 × 4 arrangement is some grid point's. -/
theorem index_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-! ## A block read through its window, for any array

Each window's block at a point, read off ANY array of the window's shape (narrowed, or re-laid, as the host
leaves it): the block's coordinate on an axis is the block index times the block's size plus the coordinate
inside the block. Stated for an arbitrary array, and only then used at the arrays the region finds. -/

/-- Row `p` of point `t`'s token block is row `1024·i + p` of the array. -/
theorem read_tokens (X : FVec Ideal S8192x4096 .f32) (t : Fin cfg0.N) (p : Fin 1024) (k : Fin 4096) (r : Fin 8192)
    (hr : r.val = win0_3.index t (0 : Fin 2) * 1024 + p.val) :
    ((cfg0.win 0).blk t).view.read (Elt Ideal) (truncf .bf16 X bitsLt_bf16_f32) (ix2 p k) = X (ix2 r k) := by
  show X (((cfg0.win 0).blk t).view.emb (ix2 p k)) = _
  refine congrArg X (funext fun a => Fin.ext ?_)
  obtain ⟨e0, e1, -⟩ := index_facts t
  match a with
  | ⟨0, _⟩ =>
    show win0_0.index t (0 : Fin 2) * 1024 + 1 * p.val = r.val
    rw [e0, hr]; omega
  | ⟨1, _⟩ =>
    show win0_0.index t (1 : Fin 2) * 4096 + 1 * k.val = k.val
    rw [e1]; omega

/-- Row `q` of point `t`'s weight block is row `1024·j + q` of the array. -/
theorem read_weights (D : FVec Ideal S4096x4096 .f32) (t : Fin cfg0.N) (q : Fin 1024) (k : Fin 4096) (s : Fin 4096)
    (hs : s.val = win0_3.index t (1 : Fin 2) * 1024 + q.val) :
    ((cfg0.win 1).blk t).view.read (Elt Ideal) (truncf .bf16 D bitsLt_bf16_f32) (ix2 q k) = D (ix2 s k) := by
  show D (((cfg0.win 1).blk t).view.emb (ix2 q k)) = _
  refine congrArg D (funext fun a => Fin.ext ?_)
  obtain ⟨-, -, e2, e3, -⟩ := index_facts t
  match a with
  | ⟨0, _⟩ =>
    show win0_1.index t (0 : Fin 2) * 1024 + 1 * q.val = s.val
    rw [e2, hs]; omega
  | ⟨1, _⟩ =>
    show win0_1.index t (1 : Fin 2) * 4096 + 1 * k.val = k.val
    rw [e3]; omega

/-- Column `q` of point `t`'s bias block is entry `1024·j + q` of the vector re-laid as a row. -/
theorem read_bias (B : FVec Ideal S4096 .f32) (t : Fin cfg0.N) (q : Fin 1024) (s : Fin 4096)
    (hs : s.val = win0_3.index t (1 : Fin 2) * 1024 + q.val) :
    ((cfg0.win 2).blk t).view.read (Elt Ideal) (shapeCast S1x4096 B shapeCasts_S4096_S1x4096) (ix2 (0 : Fin 1) q)
      = B (ix1 s) := by
  show shapeCast S1x4096 B shapeCasts_S4096_S1x4096 (((cfg0.win 2).blk t).view.emb (ix2 (0 : Fin 1) q)) = _
  obtain ⟨-, -, -, -, e4, e5, -⟩ := index_facts t
  have he : ((cfg0.win 2).blk t).view.emb (ix2 (0 : Fin 1) q) = ix2 (0 : Fin 1) s := by
    funext a; apply Fin.ext
    match a with
    | ⟨0, _⟩ =>
      show win0_2.index t (0 : Fin 2) * 1 + 1 * 0 = 0
      rw [e4]
    | ⟨1, _⟩ =>
      show win0_2.index t (1 : Fin 2) * 1024 + 1 * q.val = s.val
      rw [e5, hs]; omega
  rw [he, shapeCast_a_1a_apply]

/-- The result's tile of point `t`, read off any array, at (p, q). -/
theorem read_tile (G : FVec Ideal S8192x4096 .f32) (t : Fin cfg0.N) (p q : Fin 1024) :
    ((cfg0.win 3).blk t).view.read (Elt Ideal) G (ix2 p q) = G (((cfg0.win 3).blk t).view.emb (ix2 p q)) := rfl

/-! ## The blocks a point reads, in terms of the arguments -/

/-- Row `p` of point `t`'s token block is row `1024·i + p` of the token argument. -/
theorem tokens_block (c : Dev nD) (t : Fin cfg0.N) (p : Fin 1024) (k : Fin 4096) (r : Fin 8192)
    (hr : r.val = win0_3.index t (0 : Fin 2) * 1024 + p.val) :
    iblk m c 0 t (ix2 p k) = m ((c : Thread nD τ).loc main_arg0) (ix2 r k) := by
  unfold iblk
  rw [Entry.tokens_array m c]
  exact read_tokens _ t p k r hr

/-- Row `q` of point `t`'s weight block is row `1024·j + q` of the dense weight matrix. -/
theorem weights_block (c : Dev nD) (t : Fin cfg0.N) (q : Fin 1024) (k : Fin 4096) (s : Fin 4096)
    (hs : s.val = win0_3.index t (1 : Fin 2) * 1024 + q.val) :
    iblk m c 1 t (ix2 q k)
      = Cert.HashedLinear.dense (F := Ideal) (m ((c : Thread nD τ).loc main_arg1)) (m ((c : Thread nD τ).loc main_arg3))
          (ix2 s k) := by
  unfold iblk
  rw [Entry.weights_array m c]
  exact read_weights _ t q k s hs

/-- Column `q` of point `t`'s bias block is entry `1024·j + q` of the bias argument. -/
theorem bias_block (c : Dev nD) (t : Fin cfg0.N) (q : Fin 1024) (s : Fin 4096)
    (hs : s.val = win0_3.index t (1 : Fin 2) * 1024 + q.val) :
    iblk m c 2 t (ix2 (0 : Fin 1) q) = m ((c : Thread nD τ).loc main_arg2) (ix1 s) := by
  unfold iblk
  rw [Entry.bias_array m c]
  exact read_bias _ t q s hs

/-! ## What a point writes back -/

/-- Point `t` writes back the tile of the layer's result at its position. -/
theorem flushed_eq (c : Dev nD) (t : Fin cfg0.N) :
    (dats m 0 c).flushed 3 t = ((cfg0.win 3).blk t).view.read (Elt Ideal)
      (Cert.HashedLinear.hashedLinear (m ((c : Thread nD τ).loc main_arg0)) (m ((c : Thread nD τ).loc main_arg1))
        (m ((c : Thread nD τ).loc main_arg2)) (m ((c : Thread nD τ).loc main_arg3))) := by
  rw [Value.flushed3]
  unfold out0_3
  rw [View.canon_unit_zero origin]
  simp only [View.ld_unit_zero (S := S1024x4096) origin, View.ld_unit_zero (S := S1x1024) origin]
  funext j
  obtain ⟨p, q, rfl⟩ : ∃ (p q : Fin 1024), j = ix2 p q := ⟨j 0, j 1, eq_ix2 j⟩
  obtain ⟨-, -, -, -, -, -, b0, b1⟩ := index_facts t
  have hr : win0_3.index t (0 : Fin 2) * 1024 + p.val < 8192 := by have := p.isLt; omega
  have hs : win0_3.index t (1 : Fin 2) * 1024 + q.val < 4096 := by have := q.isLt; omega
  have he : ((cfg0.win 3).blk t).view.emb (ix2 p q)
      = ix2 (⟨win0_3.index t (0 : Fin 2) * 1024 + p.val, hr⟩ : Fin 8192)
          (⟨win0_3.index t (1 : Fin 2) * 1024 + q.val, hs⟩ : Fin 4096) := by
    funext a; apply Fin.ext
    match a with
    | ⟨0, _⟩ =>
      show win0_3.index t (0 : Fin 2) * 1024 + 1 * p.val = win0_3.index t (0 : Fin 2) * 1024 + p.val
      omega
    | ⟨1, _⟩ =>
      show win0_3.index t (1 : Fin 2) * 1024 + 1 * q.val = win0_3.index t (1 : Fin 2) * 1024 + q.val
      omega
  -- the window is written back whole: what is written back at (p, q) is the stored tile there
  have whole : ∀ (a w : Vec Ideal S1024x4096 .bf16) (β : Vec Ideal S1x1024 .f32),
      (cfg0.win 3).cut (grid0.coords t) (k0_pay1 (F := Ideal) a w β) (ix2 p q) = k0_pay1 (F := Ideal) a w β (ix2 p q) :=
    fun _ _ _ => rfl
  refine (whole (iblk m c 0 t) (iblk m c 1 t) (iblk m c 2 t)).trans ?_
  refine Eq.trans ?_ (read_tile _ t p q).symm
  rw [he]
  refine (Body.payload_apply (iblk m c 0 t) (iblk m c 1 t) (iblk m c 2 t) p q).trans ?_
  unfold Cert.HashedLinear.hashedLinear
  rw [Cert.HashedLinear.linear_apply]
  refine congrArg₂ (· + ·) (Finset.sum_congr rfl fun k _ => congrArg₂ (· * ·)
    (tokens_block m c t p k _ rfl) (weights_block m c t q k _ rfl)) (bias_block m c t q _ rfl)

/-! ## The tiles cover the result -/

/-- An entry of the result is in point `t`'s tile iff each coordinate is in the tile's range on its axis. -/
theorem mem_tile (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v5).slice (win0_3.rect t)).set ↔ _
  rw [View.set_slice_whole, Rect.mem_set_unit]
  exact Iff.rfl

/-- Entry `(r, s)` lies in the tile of the point at block position `(r / 1024, s / 1024)`. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := index_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_tile]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-! ## The result array, and the run -/

/-- After the run the result array is the hashed linear layer of the arguments. -/
theorem final (c : Dev nD) :
    (dats m 0 c).arrAt 3 cfg0.N
      = Cert.HashedLinear.hashedLinear (m ((c : Thread nD τ).loc main_arg0)) (m ((c : Thread nD τ).loc main_arg1))
          (m ((c : Thread nD τ).loc main_arg2)) (m ((c : Thread nD τ).loc main_arg3)) :=
  (dats m 0 c).arrAt_eq_of_cover 3 _ (fun t _ => flushed_eq m c t) covered

/-- Every weakly fair execution of the kernel's program ends with the result at the layer of the arguments and
    the arguments unchanged. -/
theorem run : θ_run defs (onTc (τ := τ) (main (F := Ideal))) ⟨m, fun _ => 0, ρ⟩ fun r => ∀ c : Dev nD,
      r.2.mem ((c : Thread nD τ).loc main_v5)
        = Cert.HashedLinear.hashedLinear (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Tiles

end
-- ==== Proof.RefRun.lean ====
/-
  The reference program's @main as the list of its 27 host operations, and its run read back.

  The first 22 operations are the weight lookup (a negative position wrapped by the table's length, the
  positions as a column of one-entry index vectors, the test that each lies in 0 … 65535, the gather, and
  the quiet-NaN pattern selected where the test fails); the select that does the wrapping sits 7th. The
  last five re-lay the 16777216 looked-up values as the 4096 × 4096 matrix W, contract x with W on the
  second axis of both, repeat the bias b along the rows, and add. Every execution ends with the result
  buffer at  x ·(contract axis 1 with axis 1) dense(w, idx)  +  b repeated along the rows, the four
  argument buffers unchanged.
-/
import proofs.«135311_j28132035789294_1_alg».proof.Proof.Gen.ReferenceIdeal
import Idealize.ShloMosaic.Lib.StableHlo.Run
import proofs.«135311_j28132035789294_1_alg».proof.Proof.Spec

noncomputable section

namespace Cert.ReferenceIdeal.HandRun

open Cert.ReferenceIdeal Cert.ReferenceIdeal.Gen Idealize.ShloMosaic Idealize.ShloMosaic.TcCoe Idealize.SL.Sem
  Idealize.ShloMosaic.StableHlo

variable {F : FTy → Type} [FloatOps F]

/-- The 27 operations in order: the lookup's 22 over the call's buffers (the wrapping select inline, 7th),
    then the re-laying as a matrix, the contraction, the bias repeated twice, the sum. -/
abbrev ops : List (HloOp τ sig (Elt F)) :=
  [ TRef.nullary main_call0.c (constantI S_ 32 0#32),
    TRef.unary main_call0.c main_call0.v0 (broadcastInDim S16777216 ![] bcast_S_S16777216),
    TRef.binary (.of main_arg3) main_call0.v0 main_call0.v1 (cmpi .slt),
    TRef.nullary main_call0.c_0 (constantI S_ 32 65536#32),
    TRef.unary main_call0.c_0 main_call0.v2 (broadcastInDim S16777216 ![] bcast_S_S16777216),
    TRef.binary (.of main_arg3) main_call0.v2 main_call0.v3 addi,
    TRef.ternary main_call0.v1 main_call0.v3 (.of main_arg3) main_call0.call0.v0 select,
    TRef.unary main_call0.call0.v0 main_call0.v5 (broadcastInDim S16777216x1 ![0] bcast_S16777216_S16777216x1_0),
    TRef.nullary main_call0.c_1 (constantI S1 32 65535#32),
    TRef.nullary main_call0.c_2 (constantI S_ 32 0#32),
    TRef.unary main_call0.c_2 main_call0.v6 (broadcastInDim S16777216x1 ![] bcast_S_S16777216x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16777216x1 ![0, 1] bcast_S1x1_S16777216x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12
      (fun x v => Host.reduce IntOp.andi x v reducesTo_S16777216x1_S16777216_d1 h_S_),
    TRef.binary (.of main_arg1) main_call0.v5 main_call0.v13
      (fun x i => Host.gather gather_S65536_S16777216x1_S16777216_n_0_n_n_0_1_1 x i),
    TRef.nullary main_call0.cst (constant S_ .f32 0x7FC00000#32),
    TRef.unary main_call0.cst main_call0.v14 (broadcastInDim S16777216 ![] bcast_S_S16777216),
    TRef.ternary main_call0.v12 main_call0.v13 main_call0.v14 main_call0.v15 select,
    reshape main_v0 main_v1 rfl shapeCasts_S16777216_S4096x4096,
    binary main_arg0 main_v1 main_v2 ((fun l r => Host.dotGeneral dot_S8192x4096_S4096x4096_S8192x4096_1_1_0_0_n_n none l r) : (⟨S8192x4096, .f32⟩ : BufTy).Contents (Elt F) → (⟨S4096x4096, .f32⟩ : BufTy).Contents (Elt F) → (⟨S8192x4096, .f32⟩ : BufTy).Contents (Elt F)),
    unary main_arg2 main_v3 (broadcastInDim S1x4096 ![1] bcast_S4096_S1x4096_1 : (⟨S4096, .f32⟩ : BufTy).Contents (Elt F) → (⟨S1x4096, .f32⟩ : BufTy).Contents (Elt F)),
    unary main_v3 main_v4 (broadcastInDim S8192x4096 ![0, 1] bcast_S1x4096_S8192x4096_0_1 : (⟨S1x4096, .f32⟩ : BufTy).Contents (Elt F) → (⟨S8192x4096, .f32⟩ : BufTy).Contents (Elt F)),
    binary main_v2 main_v4 main_v5 (addf : (⟨S8192x4096, .f32⟩ : BufTy).Contents (Elt F) → (⟨S8192x4096, .f32⟩ : BufTy).Contents (Elt F) → (⟨S8192x4096, .f32⟩ : BufTy).Contents (Elt F)) ]

set_option maxRecDepth 1024 in
/-- @main is that straight line: the lookup's and the wrapping select's definitions unfolded where they are
    called, the sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., nullary_bufs_sub ..,
    unary_bufs_sub .., ternary_bufs_sub .., reshape_bufs_sub .., binary_bufs_sub .., unary_bufs_sub ..,
    unary_bufs_sub .., binary_bufs_sub ..⟩

/-! ## The two stretches of the line -/

/-- The lookup's 22 operations. -/
abbrev take22 : List (HloOp τ sig (Elt F)) :=
  [ TRef.nullary main_call0.c (constantI S_ 32 0#32),
    TRef.unary main_call0.c main_call0.v0 (broadcastInDim S16777216 ![] bcast_S_S16777216),
    TRef.binary (.of main_arg3) main_call0.v0 main_call0.v1 (cmpi .slt),
    TRef.nullary main_call0.c_0 (constantI S_ 32 65536#32),
    TRef.unary main_call0.c_0 main_call0.v2 (broadcastInDim S16777216 ![] bcast_S_S16777216),
    TRef.binary (.of main_arg3) main_call0.v2 main_call0.v3 addi,
    TRef.ternary main_call0.v1 main_call0.v3 (.of main_arg3) main_call0.call0.v0 select,
    TRef.unary main_call0.call0.v0 main_call0.v5 (broadcastInDim S16777216x1 ![0] bcast_S16777216_S16777216x1_0),
    TRef.nullary main_call0.c_1 (constantI S1 32 65535#32),
    TRef.nullary main_call0.c_2 (constantI S_ 32 0#32),
    TRef.unary main_call0.c_2 main_call0.v6 (broadcastInDim S16777216x1 ![] bcast_S_S16777216x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16777216x1 ![0, 1] bcast_S1x1_S16777216x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12
      (fun x v => Host.reduce IntOp.andi x v reducesTo_S16777216x1_S16777216_d1 h_S_),
    TRef.binary (.of main_arg1) main_call0.v5 main_call0.v13
      (fun x i => Host.gather gather_S65536_S16777216x1_S16777216_n_0_n_n_0_1_1 x i),
    TRef.nullary main_call0.cst (constant S_ .f32 0x7FC00000#32),
    TRef.unary main_call0.cst main_call0.v14 (broadcastInDim S16777216 ![] bcast_S_S16777216),
    TRef.ternary main_call0.v12 main_call0.v13 main_call0.v14 main_call0.v15 select ]

/-- The last five: the looked-up values re-laid as a matrix, the contraction, the bias repeated twice, the sum. -/
abbrev tail5 : List (HloOp τ sig (Elt F)) :=
  [ reshape main_v0 main_v1 rfl shapeCasts_S16777216_S4096x4096,
    binary main_arg0 main_v1 main_v2 ((fun l r => Host.dotGeneral dot_S8192x4096_S4096x4096_S8192x4096_1_1_0_0_n_n none l r) : (⟨S8192x4096, .f32⟩ : BufTy).Contents (Elt F) → (⟨S4096x4096, .f32⟩ : BufTy).Contents (Elt F) → (⟨S8192x4096, .f32⟩ : BufTy).Contents (Elt F)),
    unary main_arg2 main_v3 (broadcastInDim S1x4096 ![1] bcast_S4096_S1x4096_1 : (⟨S4096, .f32⟩ : BufTy).Contents (Elt F) → (⟨S1x4096, .f32⟩ : BufTy).Contents (Elt F)),
    unary main_v3 main_v4 (broadcastInDim S8192x4096 ![0, 1] bcast_S1x4096_S8192x4096_0_1 : (⟨S1x4096, .f32⟩ : BufTy).Contents (Elt F) → (⟨S8192x4096, .f32⟩ : BufTy).Contents (Elt F)),
    binary main_v2 main_v4 main_v5 (addf : (⟨S8192x4096, .f32⟩ : BufTy).Contents (Elt F) → (⟨S8192x4096, .f32⟩ : BufTy).Contents (Elt F) → (⟨S8192x4096, .f32⟩ : BufTy).Contents (Elt F)) ]

/-- The line is the lookup's stretch followed by the last five. -/
theorem ops_split : (ops : List (HloOp τ sig (Elt F))) = take22 ++ tail5 := rfl

/-- Running two stretches in turn is running the second from what the first leaves. -/
theorem after_split (l₁ l₂ : List (HloOp τ sig (Elt F))) (V : Valuation τ sig (Elt F)) :
    after (l₁ ++ l₂) V = after l₂ (after l₁ V) := by
  induction l₁ generalizing V with
  | nil => rfl
  | cons op l ih => exact ih _

/-- A value written at its type and read back at that type is itself. -/
theorem ofBuf_toBuf {T : BufTy} (x : TRef sig T) (v : T.Contents (Elt F)) : x.ofBuf (x.toBuf v) = v := by
  obtain ⟨r, rfl, h2, h3⟩ := x
  rfl

/-! ## What each stretch leaves -/

attribute [local irreducible] Host.reduce Host.gather in
set_option maxRecDepth 8192 in
set_option maxHeartbeats 400000 in
/-- The first stretch leaves the lookup of the table at the positions: its 22 operations compose to that
    function's defining term, the reduction and the gather compared as wholes. -/
theorem take22_eq (V : Valuation τ sig (Elt F)) :
    after take22 V (main_v0 : DevRef τ sig)
      = Cert.HashedLinear.lookup (F := F) (V (main_arg1 : DevRef τ sig)) (V (main_arg3 : DevRef τ sig)) := by
  after_results
  simp only [ofBuf_toBuf, Cert.HashedLinear.lookup, Cert.HashedLinear.inTable, Cert.HashedLinear.positions,
    Cert.HashedLinear.wrapped]
  rfl

/-- The first stretch does not write the tokens … -/
theorem take22_arg0 (V : Valuation τ sig (Elt F)) :
    after take22 V (main_arg0 : DevRef τ sig) = V (main_arg0 : DevRef τ sig) := by after_results

/-- … nor the bias. -/
theorem take22_arg2 (V : Valuation τ sig (Elt F)) :
    after take22 V (main_arg2 : DevRef τ sig) = V (main_arg2 : DevRef τ sig) := by after_results

set_option maxHeartbeats 400000 in
/-- The last five, from any contents `W`: the tokens contracted with the 16777216 values re-laid as the
    4096 × 4096 matrix, plus the bias repeated along the rows. -/
theorem tail5_eq (W : Valuation τ sig (Elt F)) :
    after tail5 W (main_v5 : DevRef τ sig)
      = addf (Host.dotGeneral dot_S8192x4096_S4096x4096_S8192x4096_1_1_0_0_n_n none
                (W (main_arg0 : DevRef τ sig))
                (shapeCast S4096x4096 (W (main_v0 : DevRef τ sig) : FVec F S16777216 .f32)
                  shapeCasts_S16777216_S4096x4096))
              (broadcastInDim S8192x4096 ![0, 1] bcast_S1x4096_S8192x4096_0_1
                (broadcastInDim S1x4096 ![1] bcast_S4096_S1x4096_1 (W (main_arg2 : DevRef τ sig)))) := by
  after_results
  rfl

set_option maxHeartbeats 400000 in
/-- The whole line at the result buffer. -/
theorem out_eq (V : Valuation τ sig (Elt F)) :
    after ops V (main_v5 : DevRef τ sig)
      = addf (Host.dotGeneral dot_S8192x4096_S4096x4096_S8192x4096_1_1_0_0_n_n none
                (V (main_arg0 : DevRef τ sig))
                (Cert.HashedLinear.dense (F := F) (V (main_arg1 : DevRef τ sig)) (V (main_arg3 : DevRef τ sig))))
              (broadcastInDim S8192x4096 ![0, 1] bcast_S1x4096_S8192x4096_0_1
                (broadcastInDim S1x4096 ![1] bcast_S4096_S1x4096_1 (V (main_arg2 : DevRef τ sig)))) := by
  rw [ops_split, after_split, tail5_eq, take22_eq, take22_arg0, take22_arg2]
  rfl

/-! ## The run -/

/-- On every device, for any float values, from any memory with zero counters: every weakly fair execution of
    @main terminates with the result buffer at the contraction of the tokens with the looked-up matrix plus the
    bias repeated along the rows, and the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = addf (Host.dotGeneral dot_S8192x4096_S4096x4096_S8192x4096_1_1_0_0_n_n none
                (m ((c.tc : Thread nD τ).loc main_arg0))
                (Cert.HashedLinear.dense (F := F) (m ((c.tc : Thread nD τ).loc main_arg1))
                  (m ((c.tc : Thread nD τ).loc main_arg3))))
              (broadcastInDim S8192x4096 ![0, 1] bcast_S1x4096_S8192x4096_0_1
                (broadcastInDim S1x4096 ![1] bcast_S4096_S1x4096_1 (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v5).trans (out_eq (launchContents m c)),
      (h c main_arg0).trans (by after_results),
      (h c main_arg1).trans (by after_results),
      (h c main_arg2).trans (by after_results),
      (h c main_arg3).trans (by after_results)⟩)
    (run_seq scopedRefs_eq scopedSems_eq defs main (fun _ => ops) main_eq (fun _ => ops_sub) m ρ)

end Cert.ReferenceIdeal.HandRun

end
-- ==== Proof.LibMatmulABt.lean ====
/-
  A matrix product against a transposed right operand, read at coordinates, over the extended reals.

  Both operands carry the shared axis as their SECOND axis: the left operand is `[m, k]`, the right one `[n, k]`,
  and the result `[m, n]` at `(p, q)` is the inner product of row `p` of the left operand with row `q` of the
  right one — the product `A · Bᵀ`. Into the zero accumulator nothing else is added, so the entry is exactly
  `∑ c, A (p, c) · B (q, c)`. Stated for any extents `m`, `k`, `n`; a product record of a program with these
  dimension numbers unfolds to `abtDims`.
-/
import Idealize.ShloMosaic.Lib.ValueIdx
import Idealize.ShloMosaic.PureOps.Ideal.Laws

noncomputable section

namespace Cert.LibMatmulABt

open Idealize.ShloMosaic Idealize.ShloMosaic.ValueIdx
open scoped BigOperators

/-- The dimension numbers of an `[m, k]` by `[n, k]` product contracted on the second axis of both operands, no batch
    axis: the result's rows are the left operand's rows, its columns the right operand's rows. -/
abbrev abtDims {m k n : Nat} (wf : DotDims.WF (⟨2, ![m, k]⟩ : Shape) ⟨2, ![n, k]⟩ ⟨2, ![m, n]⟩ [1] [1] [0] [0] [] []) :
    DotDims ⟨2, ![m, k]⟩ ⟨2, ![n, k]⟩ ⟨2, ![m, n]⟩ := ⟨[1], [1], [0], [0], [], [], wf⟩

section Abt
variable {m k n : Nat} (wf : DotDims.WF (⟨2, ![m, k]⟩ : Shape) ⟨2, ![n, k]⟩ ⟨2, ![m, n]⟩ [1] [1] [0] [0] [] [])

/-- The left operand is read in the result's row … -/
theorem abt_lhs_row (j : (⟨2, ![m, n]⟩ : Shape).Idx) (c : (abtDims wf).contr.Idx) :
    ((abtDims wf).lhsIdx j c 0).val = (j 0).val := by
  unfold DotDims.lhsIdx
  rw [dif_neg (show ¬(0 : Fin (⟨2, ![m, k]⟩ : Shape).rank) ∈ (abtDims wf).lhsBatch from List.not_mem_nil),
    dif_pos (show (0 : Fin (⟨2, ![m, k]⟩ : Shape).rank) ∈ (abtDims wf).lhsNonContracting from List.mem_singleton.mpr rfl)]
  rfl

/-- … and the right operand in the row named by the result's column. -/
theorem abt_rhs_row (j : (⟨2, ![m, n]⟩ : Shape).Idx) (c : (abtDims wf).contr.Idx) :
    ((abtDims wf).rhsIdx j c 0).val = (j 1).val := by
  unfold DotDims.rhsIdx
  rw [dif_neg (show ¬(0 : Fin (⟨2, ![n, k]⟩ : Shape).rank) ∈ (abtDims wf).rhsBatch from List.not_mem_nil),
    dif_pos (show (0 : Fin (⟨2, ![n, k]⟩ : Shape).rank) ∈ (abtDims wf).rhsNonContracting from List.mem_singleton.mpr rfl)]
  rfl

/-- The sum over the contraction index of such a product is the sum over the shared axis of the products of row `p`
    of the left operand and row `q` of the right one. -/
theorem sum_contr_abt {φ₁ φ₂ : FTy} (l : FVec Ideal ⟨2, ![m, k]⟩ φ₁) (r : FVec Ideal ⟨2, ![n, k]⟩ φ₂) (p : Fin m) (q : Fin n) :
    ∑ c : (abtDims wf).contr.Idx, l ((abtDims wf).lhsIdx (ix2 p q) c) * r ((abtDims wf).rhsIdx (ix2 p q) c)
      = ∑ c : Fin k, l (ix2 p c) * r (ix2 q c) := by
  rw [← Equiv.sum_comp (contrEquiv1 (abtDims wf) k rfl rfl).symm]
  refine Finset.sum_congr rfl fun c _ => ?_
  have hc := contrEquiv1_symm_val (abtDims wf) k rfl rfl c
  have el : (abtDims wf).lhsIdx (ix2 p q) ((contrEquiv1 (abtDims wf) k rfl rfl).symm c) = ix2 p c :=
    funext fun a => Fin.ext (by
      match a with
      | ⟨0, _⟩ => exact abt_lhs_row wf _ _
      | ⟨1, _⟩ => exact ((abtDims wf).lhsIdx_val_of_single rfl _ _).trans hc)
  have er : (abtDims wf).rhsIdx (ix2 p q) ((contrEquiv1 (abtDims wf) k rfl rfl).symm c) = ix2 q c :=
    funext fun a => Fin.ext (by
      match a with
      | ⟨0, _⟩ => exact abt_rhs_row wf _ _
      | ⟨1, _⟩ => exact ((abtDims wf).rhsIdx_val_of_single rfl _ _).trans hc)
  rw [el, er]

/-- Such a product into the zero accumulator reads, at `(p, q)`, the inner product of row `p` of the left operand and
    row `q` of the right one. -/
theorem matmul_zero_abt {φ₁ φ₂ : FTy} (l : FVec Ideal ⟨2, ![m, k]⟩ φ₁) (r : FVec Ideal ⟨2, ![n, k]⟩ φ₂)
    (p : Fin m) (q : Fin n) :
    FloatOps.matmul (abtDims wf) none l r (constant (F := Ideal) ⟨2, ![m, n]⟩ .f32 0x00000000#32) (ix2 p q)
      = ∑ c : Fin k, l (ix2 p c) * r (ix2 q c) := by
  rw [Ideal.matmul_constant_zero_apply]
  exact sum_contr_abt wf l r p q

end Abt

end Cert.LibMatmulABt

end
-- ==== Proof.RefValue.lean ====
/-
  The reference's result, read at coordinates over the extended reals.

  The contraction of the tokens x (8192 × 4096) with a matrix W (4096 × 4096) on the second axis of both is, at
  row p and column q, the sum over k of x (p, k) · W (q, k): the product x · Wᵀ. The bias b, laid as one row and
  then repeated along the 8192 rows, contributes b q at every (p, q). So the program's last two values add up
  to the layer ∑ₖ x (p, k) · W (q, k) + b q, and every execution of the reference ends with the result buffer
  at that layer of its four arguments, W being the looked-up matrix.
-/
import proofs.«135311_j28132035789294_1_alg».proof.Proof.RefRun
import proofs.«135311_j28132035789294_1_alg».proof.Proof.Spec
import proofs.«135311_j28132035789294_1_alg».proof.Proof.LibMatmulABt
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.HandValue

open Cert.ReferenceIdeal Cert.ReferenceIdeal.Gen Idealize.ShloMosaic Idealize.ShloMosaic.TcCoe Idealize.SL.Sem
  Idealize.ShloMosaic.StableHlo Idealize.ShloMosaic.ValueIdx
open scoped BigOperators

set_option maxHeartbeats 400000 in
/-- The contraction plus the twice-repeated bias is the layer: at (p, q) the first term is
    ∑ₖ x (p, k) · W (q, k), the second is b q. -/
theorem result_eq (x : FVec Ideal S8192x4096 .f32) (W : FVec Ideal S4096x4096 .f32) (b : FVec Ideal S4096 .f32) :
    addf (Host.dotGeneral (F := Ideal) dot_S8192x4096_S4096x4096_S8192x4096_1_1_0_0_n_n none x W)
        (broadcastInDim S8192x4096 ![0, 1] bcast_S1x4096_S8192x4096_0_1
          (broadcastInDim S1x4096 ![1] bcast_S4096_S1x4096_1 b))
      = Cert.HashedLinear.linear x W b := by
  funext i
  obtain ⟨p, q, rfl⟩ : ∃ (p : Fin 8192) (q : Fin 4096), i = ix2 p q := ⟨i 0, i 1, eq_ix2 i⟩
  rw [Cert.HashedLinear.linear_apply, addf_apply]
  refine congrArg₂ (· + ·) ?_ ?_
  · -- the contraction: the sum over the contraction index, re-indexed by the shared axis
    show FloatOps.dotGeneral dot_S8192x4096_S4096x4096_S8192x4096_1_1_0_0_n_n none .single x W (ix2 p q) = _
    rw [Ideal.dotGeneral_apply]
    exact Cert.LibMatmulABt.sum_contr_abt _ x W p q
  · -- the bias: row 0 of the one-row array at column q, which is entry q of b
    rw [broadcastInDim_apply (![0, 1] : Fin 2 → Fin 2) bcast_S1x4096_S8192x4096_0_1 _ (ix2 p q)
        (ix2 (0 : Fin 1) q) (fun a => by match a with | ⟨0, _⟩ => rfl | ⟨1, _⟩ => rfl),
      broadcastInDim_apply (![1] : Fin 1 → Fin 2) bcast_S4096_S1x4096_1 b (ix2 (0 : Fin 1) q)
        (ix1 q) (fun a => by match a with | ⟨0, _⟩ => rfl)]

/-- On every device, from any memory with zero counters: every weakly fair execution of the reference
    terminates with the result buffer at the layer of the four arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
          = Cert.HashedLinear.hashedLinear (m ((c.tc : Thread nD τ).loc main_arg0))
              (m ((c.tc : Thread nD τ).loc main_arg1)) (m ((c.tc : Thread nD τ).loc main_arg2))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq _ _ _), (h c).2⟩)
    (Cert.ReferenceIdeal.HandRun.run (F := Ideal) m ρ)

end Cert.ReferenceIdeal.HandValue

end
-- ==== Proof.lean ====
/-
  A hashed linear layer: the kernel's program and the reference compute the same array over the extended reals.

  The arguments are a token matrix `x` (8192 × 4096), a table `w` of 65536 shared weights, a bias `b` (4096) and
  a list `idx` of 4096 · 4096 integer positions into the table. Both programs first look the dense weight
  matrix `W` (4096 × 4096) up from the table — entry `e` of `W`, in row-major order, is `w[idx[e]]`, with a
  negative position counted from the table's end and the quiet-NaN pattern where a position is still outside
  the table — by the same host operations, and then compute `x · Wᵀ + b`:

      out (p, q) = ∑ₖ x (p, k) · W (q, k) + b q .

  The reference does so with one product contracted on the second axis of both operands and the bias repeated
  along the rows. The kernel's program narrows `x` and `W` to a 16-bit format (the identity over the extended
  reals), re-lays `b` as a row, and runs a Pallas kernel over an 8 × 4 grid: point (i, j) multiplies rows
  1024·i … of `x` by the transpose of rows 1024·j … of `W` into a zero accumulator, adds columns 1024·j … of the
  bias row, and writes the 1024 × 1024 tile of the result. Each tile is the matching block of `x · Wᵀ + b` and
  the 32 tiles cover the result, so both results are the one function `hashedLinear x w b idx`
  (Proof/Spec.lean). Only the order of a sum and a sum into a zero accumulator are used — no distributivity —
  so the finiteness of the inputs is never opened.

  Modules: Spec (the function); KernelBody (one tile, entry by entry); KernelEntry (the arrays the region reads,
  from the host operations before it); KernelTiles (tiles to the whole result, and the kernel program's run);
  RefRun and RefValue (the reference's operations as a list, its run, and its result as the same function).
  The three frames: the kernel's two programs by their generated frame runs, the reference's by its run with
  the result dropped. The ideal pass rewrote nothing, so `preserves` asks nothing.
-/
import proofs.«135311_j28132035789294_1_alg».proof.Defs
import proofs.«135311_j28132035789294_1_alg».proof.Proof.Gen.Kernel
import proofs.«135311_j28132035789294_1_alg».proof.Proof.Gen.Kernel.Frame
import proofs.«135311_j28132035789294_1_alg».proof.Proof.Gen.KernelIdeal
import proofs.«135311_j28132035789294_1_alg».proof.Proof.Gen.KernelIdeal.Frame
import proofs.«135311_j28132035789294_1_alg».proof.Proof.Gen.KernelIdeal.Value
import proofs.«135311_j28132035789294_1_alg».proof.Proof.Gen.ReferenceIdeal
import proofs.«135311_j28132035789294_1_alg».proof.Proof.Gen.Pre_finite_inputs
import proofs.«135311_j28132035789294_1_alg».proof.Proof.KernelTiles
import proofs.«135311_j28132035789294_1_alg».proof.Proof.RefValue
import Idealize.ShloMosaic.Adequacy
import Idealize.ShloMosaic.Init

noncomputable section

namespace Cert.Proof

open Idealize.ShloMosaic Idealize.SL.Sem

/-- The kernel's program as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.HandValue.run m ρ)

/-- The idealization is the program's own text: nothing was rewritten. -/
theorem preserves : Cert.preserves_Kernel_KernelIdeal := trivial

/-- From memories that agree on the four arguments, both programs end with the result array at
    `hashedLinear x w b idx`: the kernel's by its tiles, the reference's by its one product. -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.HandValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
